-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S768x768 : Shape := ⟨2, ![768, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S4x8192x768 .f32) (main_arg1 : FVec F S768x768 .f32) (main_arg2 : FVec F S768 .f32) (main_arg3 : FVec F S768 .f32) (main_arg4 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_v13 main_v16
-- ==== Kernel.lean ====
abbrev S4x8192x768 : Shape := ⟨3, ![4, 8192, 768]⟩
abbrev S768x768 : Shape := ⟨2, ![768, 768]⟩
abbrev S768 : Shape := ⟨1, ![768]⟩
abbrev S32768x768 : Shape := ⟨2, ![32768, 768]⟩
abbrev S3072x768 : Shape := ⟨2, ![3072, 768]⟩
abbrev S768x1 : Shape := ⟨2, ![768, 1]⟩
abbrev S1x768 : Shape := ⟨2, ![1, 768]⟩

abbrev nBuf : Space → Nat
  | .hbm => 8
  | .vmem => 9
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S32768x768, .f32⟩
  | .hbm, ⟨6, _⟩ => ⟨S32768x768, .f32⟩
  | .hbm, ⟨7, _⟩ => ⟨S4x8192x768, .f32⟩
  | .local _ .vmem, ⟨0, _⟩ => ⟨S3072x768, .f32⟩
  | .local _ .vmem, ⟨1, _⟩ => ⟨S3072x768, .f32⟩
  | .local _ .vmem, ⟨2, _⟩ => ⟨S768x768, .f32⟩
  | .local _ .vmem, ⟨3, _⟩ => ⟨S768, .f32⟩
  | .local _ .vmem, ⟨4, _⟩ => ⟨S768, .f32⟩
  | .local _ .vmem, ⟨5, _⟩ => ⟨S768, .f32⟩
  | .local _ .vmem, ⟨6, _⟩ => ⟨S3072x768, .f32⟩
  | .local _ .vmem, ⟨7, _⟩ => ⟨S3072x768, .f32⟩
  | .local _ .vmem, ⟨8, _⟩ => ⟨S768x768, .bf16⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3072x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3072x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x8192x768_S32768x768 : S4x8192x768.ShapeCasts S32768x768
  shapeCasts_S32768x768_S4x8192x768 : S32768x768.ShapeCasts S4x8192x768
  inb_S768_S768_0 : ∀ a, (![0] : Fin 1 → Nat) a + S768.size a ≤ S768.size a
  h_S768 : 0 < S768.numel
  shapeCasts_S768_S768x1 : S768.ShapeCasts S768x1
  inb_S768x768_S768x768_0_0 : ∀ a, (![0, 0] : Fin 2 → Nat) a + S768x768.size a ≤ S768x768.size a
  h_S768x768 : 0 < S768x768.numel
  broadcasts_S768x1_S768x768 : S768x1.Broadcasts S768x768
  bitsLt_bf16_f32 : FTy.bits .bf16 < FTy.bits .f32
  inb_S3072x768_S3072x768_0_0 : ∀ a, (![0, 0] : Fin 2 → Nat) a + S3072x768.size a ≤ S3072x768.size a
  h_S3072x768 : 0 < S3072x768.numel
  shapeCasts_S3072x768_S3072x768 : S3072x768.ShapeCasts S3072x768
  shapeCasts_S768_S1x768 : S768.ShapeCasts S1x768
  broadcasts_S1x768_S3072x768 : S1x768.Broadcasts S3072x768
  dot_S3072x768_S768x768_S3072x768_1_1_0_0_n_n_wf : DotDims.WF S3072x768 S768x768 S3072x768 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S3072x768.size a < S32768x768.size a
  hwx0_0 : ∀ i : grid0.Coords, EltTy.bits .f32 = 32 ∨ (Rect.unit (s := S32768x768) (fun a => cc0_transform_0 i a * S3072x768.size a) (fun a => (Pipeline.Clip.of (cc0_transform_0 i a) (S3072x768.size a) (S32768x768.size a)).extent (S3072x768.size a)) fun a => Pipeline.Clip.inb (Pipeline.Clip.ok_of (hstart0_0 i a))).WholeWords (EltTy.packing .f32)
  hwxs0_0 : ∀ i : grid0.Coords, EltTy.bits .f32 = 32 ∨ (Rect.unit (s := S3072x768) (fun _ => 0) (fun a => (Pipeline.Clip.of (cc0_transform_0 i a) (S3072x768.size a) (S32768x768.size a)).extent (S3072x768.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768.size a ≤ S768.size a
  hwx0_3 : ∀ i : grid0.Coords, EltTy.bits .f32 = 32 ∨ (Rect.block (s := S768) S768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S3072x768.size a < S32768x768.size a
  hwx0_5 : ∀ i : grid0.Coords, EltTy.bits .f32 = 32 ∨ (Rect.unit (s := S32768x768) (fun a => cc0_transform_5 i a * S3072x768.size a) (fun a => (Pipeline.Clip.of (cc0_transform_5 i a) (S3072x768.size a) (S32768x768.size a)).extent (S3072x768.size a)) fun a => Pipeline.Clip.inb (Pipeline.Clip.ok_of (hstart0_5 i a))).WholeWords (EltTy.packing .f32)
  hwxs0_5 : ∀ i : grid0.Coords, EltTy.bits .f32 = 32 ∨ (Rect.unit (s := S3072x768) (fun _ => 0) (fun a => (Pipeline.Clip.of (cc0_transform_5 i a) (S3072x768.size a) (S32768x768.size a)).extent (S3072x768.size a)) fun a => (Nat.zero_add _).trans_le (Pipeline.Clip.extent_le (Pipeline.Clip.ok_of (hstart0_5 i a)))).WholeWords (EltTy.packing .f32)

variable [Facts₀]

def dot_S3072x768_S768x768_S3072x768_1_1_0_0_n_n : DotDims S3072x768 S768x768 S3072x768 where
  lhsContracting := [1]
  rhsContracting := [1]
  lhsNonContracting := [0]
  rhsNonContracting := [0]
  lhsBatch := []
  rhsBatch := []
  wf := dot_S3072x768_S768x768_S3072x768_1_1_0_0_n_n_wf

abbrev win0_0 : Pipeline.Window sig grid0 :=
  Pipeline.Window.ofSpecClip (Memref.whole main_call0_v0) S3072x768.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_call0_v1) S3072x768.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S768x768 : Shape := ⟨2, ![768, 768]⟩
abbrev S768 : Shape := ⟨1, ![768]⟩
abbrev S768x1 : Shape := ⟨2, ![768, 1]⟩
abbrev S1x1x768 : Shape := ⟨3, ![1, 1, 768]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x768, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768x1, .f32⟩
  | .hbm, ⟨6, _⟩ => ⟨S768x768, .f32⟩
  | .hbm, ⟨7, _⟩ => ⟨S768x768, .f32⟩
  | .hbm, ⟨8, _⟩ => ⟨S768x1, .f32⟩
  | .hbm, ⟨9, _⟩ => ⟨S768x768, .f32⟩
  | .hbm, ⟨10, _⟩ => ⟨S768x768, .f32⟩
  | .hbm, ⟨11, _⟩ => ⟨S4x8192x768, .f32⟩
  | .hbm, ⟨12, _⟩ => ⟨S1x1x768, .f32⟩
  | .hbm, ⟨13, _⟩ => ⟨S4x8192x768, .f32⟩
  | .hbm, ⟨14, _⟩ => ⟨S4x8192x768, .f32⟩
  | .hbm, ⟨15, _⟩ => ⟨S_, .f32⟩
  | .hbm, ⟨16, _⟩ => ⟨S4x8192x768, .f32⟩
  | .hbm, ⟨17, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S768_S768x1_0 : S768.BroadcastsInDim S768x1 (![0] : Fin 1 → Fin S768x1.rank)
  bcast_S768x1_S768x768_0_1 : S768x1.BroadcastsInDim S768x768 (![0, 1] : Fin 2 → Fin S768x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  bcast_S_S4x8192x768 : S_.BroadcastsInDim S4x8192x768 (![] : Fin 0 → Fin S4x8192x768.rank)
  dot_S4x8192x768_S768x768_S4x8192x768_2_1_01_0_n_n_wf : DotDims.WF S4x8192x768 S768x768 S4x8192x768 [2] [1] [0, 1] [0] [] []

variable [Facts₀]

def dot_S4x8192x768_S768x768_S4x8192x768_2_1_01_0_n_n : DotDims S4x8192x768 S768x768 S4x8192x768 where
  lhsContracting := [2]
  rhsContracting := [1]
  lhsNonContracting := [0, 1]
  rhsNonContracting := [0]
  lhsBatch := []
  rhsBatch := []
  wf := dot_S4x8192x768_S768x768_S4x8192x768_2_1_01_0_n_n_wf

class Facts : Prop extends Facts₀ where

variable [Facts]
-- ==== Proof.KernelBody.lean ====
/-
  The body of the fused kernel as one step on whole staging buffers.

  At a grid point the body reads the five input buffers whole (a block of 3072 rows of x, the weight matrix, and the
  three vectors b, alpha, beta), reads the output buffer once without using what it read, and stores one value over
  the whole output buffer: the rectified sum of the bias and the product of the x block with the transposed
  reconstructed weight alpha * W + beta. So after the body the inputs' buffers hold what they held and the output's
  buffer holds that value of the inputs' contents, whatever it held before. The scratch operand is never touched.
-/
import proofs.«153930_g82884278878587_cont_sun_c4_746_13_alg».proof.Proof.Gen.Kernel.Frame
import proofs.«153930_g82884278878587_cont_sun_c4_746_13_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a length-768 buffer, of the weight buffer, and of a 3072-row block buffer: the rectangles the body's
    loads and its store go through. -/
abbrev rectVec : Rect S768 := Rect.unit (s := S768) ![0] S768.size inb_S768_S768_0
abbrev rectMat : Rect S768x768 := Rect.unit (s := S768x768) ![0, 0] S768x768.size inb_S768x768_S768x768_0_0
abbrev rectBlk : Rect S3072x768 := Rect.unit (s := S3072x768) ![0, 0] S3072x768.size inb_S3072x768_S3072x768_0_0

/-- What the output buffer holds after the body, as a function of what the five input buffers hold: x's block `x0`,
    the weights `x1`, the bias `x2`, the scale `x3` and the shift `x4`. -/
def outBlock (x0 : Vec F S3072x768 .f32) (x1 : Vec F S768x768 .f32) (x2 x3 x4 : Vec F S768 .f32) : Vec F S3072x768 .f32 :=
  View.canon [⟨rectBlk, k0_pay1 (View.ld x3 rectVec) (View.ld x4 rectVec) (View.ld x1 rectMat) (View.ld x0 rectBlk) (View.ld x2 rectVec)⟩]

/-- The one store covers the output buffer. -/
theorem cover_out (p0 : Vec F S3072x768 .f32) (y : S3072x768.Idx) :
    ∃ pc ∈ ([⟨rectBlk, p0⟩] : List (View.Piece (Elt F) S3072x768 .f32)), y ∈ pc.1.set :=
  View.cover_of_tiled [⟨rectBlk, p0⟩] S3072x768.size (by rfl) y

set_option maxHeartbeats 1000000 in
/-- The body on whole staging buffers: the inputs' at contents `x0 … x4`, the output's at anything; it ends with the
    inputs' unchanged and the output's at `outBlock` of them. -/
theorem sound_kernel (c : Dev nD) (E : Set ℕ) (i : grid0.Coords)
    (arg1 : Memref sig .tc .vmem S3072x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S768 .f32) (harg4 : arg4.IsWhole)
    (arg5 : Memref sig .tc .vmem S768 .f32) (harg5 : arg5.IsWhole) (arg6 : Memref sig .tc .vmem S3072x768 .f32) (harg6 : arg6.IsWhole)
    (arg7 : Memref sig .tc .vmem S768x768 .bf16) (harg7 : arg7.IsWhole)
    (x0 : Vec F S3072x768 .f32) (x1 : Vec F S768x768 .f32) (x2 x3 x4 : Vec F S768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Body

end
-- ==== Proof.KernelRun.lean ====
/-
  The word-level kernel runs to the end and leaves its arguments as they were.

  Nothing is claimed here about the result: at the last grid point the input buffer's rows past the array's end hold
  words nothing names, and at the word level the matrix unit's result is not stated row by row, so what the body
  leaves in the output's buffer is not named. The proof data therefore forget the output window: its buffer is handed
  to the body at any contents and taken back at any contents. The five input windows are read only; the input
  block's buffer is stated on the rows inside the array.
-/
import proofs.«153930_g82884278878587_cont_sun_c4_746_13_alg».proof.Proof.KernelBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window, whose buffer's contents are not named. -/
def forgets0 : Fin 6 → Bool := fun w => w.val == 5

/-- The input block at point t filled out with the zero word to a whole buffer. -/
def xfull (c : Dev nD) (t : Fin cfg0.N) : S3072x768.Idx → Elt F .f32 :=
  win0_0.fill (grid0.coords t) (fun _ => Scalar.ofBits .f32 0#32) (iblk m c 0 t)

/-- The proof data: the arrays as the region finds them; after the body the input buffers at their blocks, the
    output's not named. -/
def dats (_ : Fin 1) (c : Dev nD) : Dat τ (Elt F) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- x's buffer as the body finds it: just fetched, the block on the rows inside the array, anything past them. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's step at a point -/

/-- What the body is called with at point t, the windows one by one (the output's buffer at anything), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns: the input block's buffer stated on its moved rows, the output's at anything. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩, ⟨%d5, H5⟩⟩
  iapply (sound_kernel (F := F) c Set.univ (grid0.coords t) _ _ _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    unfold xfull
    rw [win0_0.cut_fill]
    iexact H0
  isplitl [H1]; · iexact H1
  isplitl [H2]; · iexact H2
  isplitl [H3]; · iexact H3
  isplitl [H4]; · iexact H4
  iexists _
  iexact H5

/-- The body's obligation at every point, the output window forgotten. -/
theorem body_obligation (c : Dev nD) :
    BodyObligationLoose (dats (F := F) m 0 c) (defs₀ (F := F)) Variants.none () Set.univ forgets0 := fun t => by
  rw [bigSep_W0, bigSep_W0]
  exact sound_body m c t

/-! ## The run and the frame -/

/-- The one buffer the reshape after the launch writes. -/
def written : Finset (Ref sig .tc) := {main_v0}

theorem tail_writes : ∀ ops ∈ ([hostOps1] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  have e := Proc.devRef_injective (τ := τ) _ hb
  subst e
  exact Finset.mem_singleton_self _

set_option backward.isDefEq.respectTransparency.types false in
/-- Every weakly fair execution of the program terminates; the input arrays of the launch hold what they held, and
    every other buffer but the reshape's result holds what it held at the launch. -/
theorem run_main : θ_run defs (onTc (τ := τ) (main (F := F))) (s₀ m ρ)
    (Pipeline.RDat.FramePostR (cfgs 0) (fun c => (dats m 0 c).toRForget forgets0) written (fun c b => V0 m c (Proc.devRef .tc b))) :=
  Pipeline.RDat.θ_run_frame_around_T cfgs (0 : Fin 1) launch0 defs₀ Variants.none (fun c => (dats m 0 c).toRForget forgets0) written m ρ main
    (hbody := fun c => (body_obligation m c).toRForget) (hshare := fun c => ((dats m 0 c).toRForget forgets0).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The program runs to the end and leaves its arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
      (Eq.mp (congrFun (((dats m 0 c).toRForget forgets0).ArrAt_in 1 rfl _) _) ((h c).1 1)).trans ((A_eq m c 1).trans (V_main_arg1 m c)),
      (Eq.mp (congrFun (((dats m 0 c).toRForget forgets0).ArrAt_in 2 rfl _) _) ((h c).1 2)).trans ((A_eq m c 2).trans (V_main_arg2 m c)),
      (Eq.mp (congrFun (((dats m 0 c).toRForget forgets0).ArrAt_in 3 rfl _) _) ((h c).1 3)).trans ((A_eq m c 3).trans (V_main_arg3 m c)),
      (Eq.mp (congrFun (((dats m 0 c).toRForget forgets0).ArrAt_in 4 rfl _) _) ((h c).1 4)).trans ((A_eq m c 4).trans (V_main_arg4 m c))⟩)
    (run_main m ρ)

end Cert.Kernel.Body

end
-- ==== Proof.IdealBody.lean ====
/-
  The body of the fused kernel as one step on whole staging buffers.

  At a grid point the body reads the five input buffers whole (a block of 3072 rows of x, the weight matrix, and the
  three vectors b, alpha, beta), reads the output buffer once without using what it read, and stores one value over
  the whole output buffer: the rectified sum of the bias and the product of the x block with the transposed
  reconstructed weight alpha * W + beta. So after the body the inputs' buffers hold what they held and the output's
  buffer holds that value of the inputs' contents, whatever it held before. The scratch operand is never touched.
-/
import proofs.«153930_g82884278878587_cont_sun_c4_746_13_alg».proof.Proof.Gen.KernelIdeal.Frame
import proofs.«153930_g82884278878587_cont_sun_c4_746_13_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a length-768 buffer, of the weight buffer, and of a 3072-row block buffer: the rectangles the body's
    loads and its store go through. -/
abbrev rectVec : Rect S768 := Rect.unit (s := S768) ![0] S768.size inb_S768_S768_0
abbrev rectMat : Rect S768x768 := Rect.unit (s := S768x768) ![0, 0] S768x768.size inb_S768x768_S768x768_0_0
abbrev rectBlk : Rect S3072x768 := Rect.unit (s := S3072x768) ![0, 0] S3072x768.size inb_S3072x768_S3072x768_0_0

/-- What the output buffer holds after the body, as a function of what the five input buffers hold: x's block `x0`,
    the weights `x1`, the bias `x2`, the scale `x3` and the shift `x4`. -/
def outBlock (x0 : Vec F S3072x768 .f32) (x1 : Vec F S768x768 .f32) (x2 x3 x4 : Vec F S768 .f32) : Vec F S3072x768 .f32 :=
  View.canon [⟨rectBlk, k0_pay1 (View.ld x3 rectVec) (View.ld x4 rectVec) (View.ld x1 rectMat) (View.ld x0 rectBlk) (View.ld x2 rectVec)⟩]

/-- The one store covers the output buffer. -/
theorem cover_out (p0 : Vec F S3072x768 .f32) (y : S3072x768.Idx) :
    ∃ pc ∈ ([⟨rectBlk, p0⟩] : List (View.Piece (Elt F) S3072x768 .f32)), y ∈ pc.1.set :=
  View.cover_of_tiled [⟨rectBlk, p0⟩] S3072x768.size (by rfl) y

set_option maxHeartbeats 1000000 in
/-- The body on whole staging buffers: the inputs' at contents `x0 … x4`, the output's at anything; it ends with the
    inputs' unchanged and the output's at `outBlock` of them. -/
theorem sound_kernel (c : Dev nD) (E : Set ℕ) (i : grid0.Coords)
    (arg1 : Memref sig .tc .vmem S3072x768 .f32) (harg1 : arg1.IsWhole) (arg2 : Memref sig .tc .vmem S768x768 .f32) (harg2 : arg2.IsWhole)
    (arg3 : Memref sig .tc .vmem S768 .f32) (harg3 : arg3.IsWhole) (arg4 : Memref sig .tc .vmem S768 .f32) (harg4 : arg4.IsWhole)
    (arg5 : Memref sig .tc .vmem S768 .f32) (harg5 : arg5.IsWhole) (arg6 : Memref sig .tc .vmem S3072x768 .f32) (harg6 : arg6.IsWhole)
    (arg7 : Memref sig .tc .vmem S768x768 .bf16) (harg7 : arg7.IsWhole)
    (x0 : Vec F S3072x768 .f32) (x1 : Vec F S768x768 .f32) (x2 x3 x4 : Vec F S768 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E (cc0__fused_kernel i arg1 harg1 arg2 harg2 arg3 harg3 arg4 harg4 arg5 harg5 arg6 harg6 arg7 harg7) K := by
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Body

end
-- ==== Proof.Spec.lean ====
/-
  The layer as a function of its arguments, entry by entry, over the extended reals.

  The reconstructed weight has entry (h, k) equal to alpha h * W (h, k) + beta h. Row r of the flattened input
  (r = 8192 * batch + position) and output column h give the entry

      max ((sum over k of x (r, k) * (alpha h * W (h, k) + beta h)) + b h) 0,

  which depends on the input only through its row r. Both programs compute exactly this term, with the same order of
  the products and of the two additions, so no law of arithmetic is needed to join them.
-/
import Idealize.ShloMosaic.PureOps.Ideal
import Idealize.ShloMosaic.Lib.ValueIdx

noncomputable section

open scoped BigOperators

namespace Cert.Spec

open Idealize.ShloMosaic Idealize.ShloMosaic.ValueIdx

/-- Entry (h, k) of the reconstructed weight alpha * W + beta (alpha and beta act on rows). -/
def wrec (W : (⟨2, ![768, 768]⟩ : Shape).Idx → EReal) (al be : (⟨1, ![768]⟩ : Shape).Idx → EReal) (h k : Fin 768) : EReal :=
  al (ix1 h) * W (ix2 h k) + be (ix1 h)

/-- One output entry from one row of the input: the rectified affine form of that row. -/
def entry (row : Fin 768 → EReal) (W : (⟨2, ![768, 768]⟩ : Shape).Idx → EReal) (b al be : (⟨1, ![768]⟩ : Shape).Idx → EReal)
    (h : Fin 768) : EReal :=
  max ((∑ k : Fin 768, row k * wrec W al be h k) + b (ix1 h)) (Ideal.ofBits .f32 0x00000000#32)

/-- The whole result over the flattened rows: entry (r, h) from row r of the flattened input. -/
def flat (x2 : (⟨2, ![32768, 768]⟩ : Shape).Idx → EReal) (W : (⟨2, ![768, 768]⟩ : Shape).Idx → EReal)
    (b al be : (⟨1, ![768]⟩ : Shape).Idx → EReal) : (⟨2, ![32768, 768]⟩ : Shape).Idx → EReal :=
  fun i => entry (fun k => x2 (ix2 (i 0) k)) W b al be (i 1)

/-- The whole result over (batch, position, column): entry (n, s, h) from row (n, s) of the input. -/
def full (x : (⟨3, ![4, 8192, 768]⟩ : Shape).Idx → EReal) (W : (⟨2, ![768, 768]⟩ : Shape).Idx → EReal)
    (b al be : (⟨1, ![768]⟩ : Shape).Idx → EReal) : (⟨3, ![4, 8192, 768]⟩ : Shape).Idx → EReal :=
  fun i => entry (fun k => x (ix3 (i 0) (i 1) k)) W b al be (i 2)

end Cert.Spec

end
-- ==== Proof.LibDotT.lean ====
/-
  A matrix product with the right operand transposed, read at an entry.

  For a product of an [M, K] array with an [N, K] array that contracts the LAST axis of both (dimension numbers
  [1], [1], [0], [0], no batch axis) into a zero accumulator, the (p, q) entry over the extended reals is
  Σ_k l (p, k) · r (q, k). The statement takes the two facts about the dimension record that are decided by
  unfolding it at a concrete record (the operands' leading coordinates follow the result's), so that it serves
  every extent.
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-- The (p, q) entry of `l · rᵀ` accumulated from zero is the sum over the shared last axis. -/
theorem matmulT_zero_apply {M N K : Nat} {φ₁ φ₂ : FTy}
    (d : DotDims ⟨2, ![M, K]⟩ ⟨2, ![N, K]⟩ ⟨2, ![M, N]⟩)
    (hl : d.lhsContracting = [1]) (hr : d.rhsContracting = [1])
    (hrank : d.contr.rank = 1) (hsize : d.contr.size ⟨0, by omega⟩ = K)
    (hl0 : ∀ j k, (d.lhsIdx j k 0).val = (j 0).val) (hr0 : ∀ j k, (d.rhsIdx j k 0).val = (j 1).val)
    (prec : Option ContractPrecision)
    (l : FVec Ideal ⟨2, ![M, K]⟩ φ₁) (r : FVec Ideal ⟨2, ![N, K]⟩ φ₂) (p : Fin M) (q : Fin N) :
    matmul d prec l r (constant (F := Ideal) ⟨2, ![M, N]⟩ .f32 0x00000000#32) (ix2 p q)
      = ∑ k : Fin K, l (ix2 p k) * r (ix2 q k) := by
  refine (Ideal.matmul_constant_zero_apply d prec l r (ix2 p q)).trans ?_
  rw [← Equiv.sum_comp (contrEquiv1 d K hrank hsize).symm]
  refine Finset.sum_congr rfl fun k _ => ?_
  have e1 : d.lhsIdx (ix2 p q) ((contrEquiv1 d K hrank hsize).symm k) = ix2 p k := by
    funext a; apply Fin.ext
    match a with
    | ⟨0, _⟩ => exact hl0 _ _
    | ⟨1, _⟩ => exact (d.lhsIdx_val_of_single hl _ _).trans (contrEquiv1_symm_val d K hrank hsize k)
  have e2 : d.rhsIdx (ix2 p q) ((contrEquiv1 d K hrank hsize).symm k) = ix2 q k := by
    funext a; apply Fin.ext
    match a with
    | ⟨0, _⟩ => exact hr0 _ _
    | ⟨1, _⟩ => exact (d.rhsIdx_val_of_single hr _ _).trans (contrEquiv1_symm_val d K hrank hsize k)
  rw [e1, e2]

end Cert.LibDotT

end
-- ==== Proof.LibLayout.lean ====
/-
  Layout operations read at explicit coordinates: the forms a reduction with kept dimensions and a block with two
  leading unit axes meet.

  A vector of `a` entries cast to a column `[a, 1]` keeps entry `i` at `(i, 0)`; a column `[a, 1]` broadcast to
  `[a, b]` repeats entry `i` along row `i`; an array `[1, 1, a, b]` cast to `[a, b]`, or back, keeps entry `(i, j)`:
  in each case the two row-major positions are the same number.
-/
import Idealize.ShloMosaic.Lib.Pipeline.Value
import Idealize.ShloMosaic.Lib.ValueIdx

namespace Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Idealize.ShloMosaic.ValueIdx
-- ==== Proof.LibRow.lean ====
/-
  A vector laid out as a row.

  Casting a vector of n entries to the shape [1, n] keeps the entries in order: entry (0, j) of the row is entry j of
  the vector, because both sit at row-major position j.
-/
import Idealize.ShloMosaic.Lib.Pipeline.Value
import Idealize.ShloMosaic.Lib.ValueIdx

noncomputable section

namespace Cert.LibRow

open Idealize.ShloMosaic Idealize.ShloMosaic.ValueIdx

/-- An [n] vector cast to the row [1, n], read at (0, j), is the vector at j — for any element type and any n. -/
theorem row_apply {α : Type} {n : Nat} (v : (⟨1, ![n]⟩ : Shape).Idx → α) (h : (⟨1, ![n]⟩ : Shape).ShapeCasts ⟨2, ![1, n]⟩) (j : Fin n) :
    shapeCast (⟨2, ![1, n]⟩ : Shape) v h (ix2 (0 : Fin 1) j) = v (ix1 j) := by
  refine shapeCast_apply v h (ix2 (0 : Fin 1) j) (ix1 j) ?_
  rw [Shape.rowMajor_val_one, Shape.rowMajor_val_two]
  show j.val = (0 : Fin 1).val * n + j.val
  simp

end Cert.LibRow

end
-- ==== Proof.LibColsJoin.lean ====
/-
  Blocks side by side, and a row repeated over a block, read at coordinates.

  Two arrays of M rows with a and b columns joined along the columns give an array of M rows and n = a + b columns whose
  entry (p, k) is the left part's entry (p, k) for k < a and the right part's entry (p, k - a) otherwise. A row [1, n]
  repeated over M rows reads, at (p, j), the row's entry j. For any extents.
-/
import Idealize.ShloMosaic.Lib.Pipeline.Value
import Idealize.ShloMosaic.Lib.ValueIdx

noncomputable section

namespace Cert.LibColsJoin

open Idealize.ShloMosaic Idealize.ShloMosaic.ValueIdx

variable {α : Type}

/-- A row [1, n] repeated over M rows reads, at (p, j), the row's entry j (n ≠ 1: the row's second axis is a true axis). -/
theorem bcast_row {M n : ℕ} (hn : n ≠ 1) (b : (⟨2, ![1, n]⟩ : Shape).Idx → α)
    (h : (⟨2, ![1, n]⟩ : Shape).Broadcasts ⟨2, ![M, n]⟩) (p : Fin M) (j : Fin n) :
    broadcastTo ⟨2, ![M, n]⟩ b h (ix2 p j) = b (ix2 (0 : Fin 1) j) := by
  refine broadcastTo_apply b h (ix2 p j) (ix2 (0 : Fin 1) j) fun ax => ?_
  match ax with
  | ⟨0, _⟩ => show (0 : ℕ) = if (1 : ℕ) = 1 then 0 else p.val; rw [if_pos rfl]
  | ⟨1, _⟩ => show j.val = if n = 1 then 0 else j.val; rw [if_neg hn]

/-- Two blocks side by side: a column of the left part. -/
theorem cat_cols_left {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin a) (k' : Fin n)
    (hk : k'.val = k.val) :
    concatenate ⟨2, ![M, n]⟩ 1 [⟨⟨2, ![M, a]⟩, x⟩, ⟨⟨2, ![M, b]⟩, y⟩] h (ix2 p k') = x (ix2 p k) := by
  refine concatenate_pair_apply_left (1 : Fin 2) x y h (ix2 p k') rfl (ix2 p k) fun b' => ?_
  match b' with
  | ⟨0, _⟩ => rfl
  | ⟨1, _⟩ => exact hk.symm

/-- Two blocks side by side: a column of the right part. -/
theorem cat_cols_right {M a b n : ℕ} (x : (⟨2, ![M, a]⟩ : Shape).Idx → α) (y : (⟨2, ![M, b]⟩ : Shape).Idx → α)
    (h : Shape.Concatenates [⟨2, ![M, a]⟩, ⟨2, ![M, b]⟩] ⟨2, ![M, n]⟩ 1) (p : Fin M) (k : Fin b) (k' : Fin n)
    (hk : k'.val = a + k.val) :
    concatenate ⟨2, ![M, n]⟩ 1 [⟨⟨2, ![M, a]⟩, x⟩, ⟨⟨2, ![M, b]⟩, y⟩] h (ix2 p k') = y (ix2 p k) := by
  refine concatenate_pair_apply_right (1 : Fin 2) x y h (ix2 p k') rfl rfl (ix2 p k) (fun b' hb => ?_) ?_
  · match b' with
    | ⟨0, _⟩ => rfl
    | ⟨1, _⟩ => exact absurd rfl hb
  · show k.val + a = k'.val
    omega

end Cert.LibColsJoin

end
-- ==== Proof.Payload.lean ====
/-
  The body's stored value read at an entry, over the extended reals.

  With a 3072-row block X of the input in hand, entry (p, q) of the value the body stores is the layer's entry for the
  row X (p, ·) and output column q: the product with the transposed reconstructed weight is a sum over the shared
  axis, the changes of float format are the identity, the bias row repeats b over the rows, and the final maximum is
  taken against the zero word. In particular the entry depends on X only through its row p.
-/
import proofs.«153930_g82884278878587_cont_sun_c4_746_13_alg».proof.Proof.Gen.KernelIdeal.Skeleton
import proofs.«153930_g82884278878587_cont_sun_c4_746_13_alg».proof.Proof.Spec
import proofs.«153930_g82884278878587_cont_sun_c4_746_13_alg».proof.Proof.LibDotT
import proofs.«153930_g82884278878587_cont_sun_c4_746_13_alg».proof.Proof.LibLayout
import proofs.«153930_g82884278878587_cont_sun_c4_746_13_alg».proof.Proof.LibRow
import proofs.«153930_g82884278878587_cont_sun_c4_746_13_alg».proof.Proof.LibColsJoin
import Idealize.ShloMosaic.Lib.ValueIdx
import Idealize.ShloMosaic.Lib.Pipeline.Value
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-- The reconstructed weight the body forms, read at (q, k). -/
theorem weight_apply (al be : Vec Ideal S768 .f32) (W : Vec Ideal S768x768 .f32) (q k : Fin 768) :
    (truncf .bf16 (addf (mulf (broadcastTo S768x768 (shapeCast S768x1 al shapeCasts_S768_S768x1) broadcasts_S768x1_S768x768) W)
        (broadcastTo S768x768 (shapeCast S768x1 be shapeCasts_S768_S768x1) broadcasts_S768x1_S768x768)) bitsLt_bf16_f32
      : FVec Ideal S768x768 .bf16) (ix2 q k) = Spec.wrec W al be q k := by
  show broadcastTo S768x768 (shapeCast S768x1 al shapeCasts_S768_S768x1) broadcasts_S768x1_S768x768 (ix2 q k) * W (ix2 q k)
      + broadcastTo S768x768 (shapeCast S768x1 be shapeCasts_S768_S768x1) broadcasts_S768x1_S768x768 (ix2 q k) = _
  rw [broadcastTo_a1_ab_apply, broadcastTo_a1_ab_apply, shapeCast_a_a1_apply, shapeCast_a_a1_apply]
  rfl

/-- The bias row repeated over the block's rows, read at (p, q). -/
theorem bias_apply (b : Vec Ideal S768 .f32) (p : Fin 3072) (q : Fin 768) :
    broadcastTo S3072x768 (shapeCast S1x768 b shapeCasts_S768_S1x768) broadcasts_S1x768_S3072x768 (ix2 p q) = b (ix1 q) := by
  rw [Cert.LibColsJoin.bcast_row (by decide), Cert.LibRow.row_apply]

/-- Entry (p, q) of the stored value: the layer's entry for row p of the block and column q. -/
theorem pay_apply (al be b : Vec Ideal S768 .f32) (W : Vec Ideal S768x768 .f32) (X : Vec Ideal S3072x768 .f32)
    (p : Fin 3072) (q : Fin 768) :
    k0_pay1 (F := Ideal) al be W X b (ix2 p q) = Spec.entry (fun k => X (ix2 p k)) W b al be q := by
  unfold k0_pay1 Spec.entry
  show max (matmul dot_S3072x768_S768x768_S3072x768_1_1_0_0_n_n none
        (truncf .bf16 (shapeCast S3072x768 X shapeCasts_S3072x768_S3072x768) bitsLt_bf16_f32 : FVec Ideal S3072x768 .bf16)
        (truncf .bf16 (addf (mulf (broadcastTo S768x768 (shapeCast S768x1 al shapeCasts_S768_S768x1) broadcasts_S768x1_S768x768) W)
          (broadcastTo S768x768 (shapeCast S768x1 be shapeCasts_S768_S768x1) broadcasts_S768x1_S768x768)) bitsLt_bf16_f32 : FVec Ideal S768x768 .bf16)
        (constant (F := Ideal) S3072x768 .f32 0x00000000#32) (ix2 p q)
      + broadcastTo S3072x768 (shapeCast S1x768 b shapeCasts_S768_S1x768) broadcasts_S1x768_S3072x768 (ix2 p q))
      (Ideal.ofBits .f32 0x00000000#32) = _
  rw [bias_apply, Cert.LibDotT.matmulT_zero_apply dot_S3072x768_S768x768_S3072x768_1_1_0_0_n_n rfl rfl rfl rfl (fun _ _ => rfl) (fun _ _ => rfl)]
  congr 2
  refine Finset.sum_congr rfl fun k _ => ?_
  rw [weight_apply, shapeCast_self]
  rfl

end Cert.KernelIdeal.Payload

end
-- ==== Proof.IdealRun.lean ====
/-
  The idealized kernel's run, with the output array after every write-back named.

  The grid has eleven points; point t stages rows 3072 t … 3072 t + 3071 of the flattened input, of which only the
  first 2048 exist at the last point: there the fetch fills the rest of the buffer with values nothing names. The
  body's value at a row depends on the input's same row alone, so on the rows inside the array what the body leaves
  in the output's buffer does not depend on those values, and the write-back, cut at the array's end in the same way,
  writes only such rows. The proof data below name, after the body at each point, the input block filled out with
  zeros and the body's value of it; the body's step then meets the data on the rows that are moved.
-/
import proofs.«153930_g82884278878587_cont_sun_c4_746_13_alg».proof.Proof.IdealBody
import proofs.«153930_g82884278878587_cont_sun_c4_746_13_alg».proof.Proof.Payload

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

theorem zeroOffsets : (![0, 0] : Fin 2 → Nat) = fun _ => 0 := funext fun a => by fin_cases a <;> rfl
theorem zeroOffset : (![0] : Fin 1 → Nat) = fun _ => 0 := funext fun a => by fin_cases a <;> rfl

/-- The value the body stores is its arithmetic applied to the buffers' whole contents. -/
theorem outBlock_eq (x0 : Vec Ideal S3072x768 .f32) (x1 : Vec Ideal S768x768 .f32) (x2 x3 x4 : Vec Ideal S768 .f32) :
    outBlock x0 x1 x2 x3 x4 = k0_pay1 x3 x4 x1 x0 x2 := by
  unfold outBlock
  rw [View.canon_unit_zero zeroOffsets]
  simp only [View.ld_unit_zero (S := S3072x768) zeroOffsets, View.ld_unit_zero (S := S768x768) zeroOffsets,
    View.ld_unit_zero (S := S768) zeroOffset]

/-- Entry (p, q) of the stored value is the layer's entry for row p of the block. -/
theorem outBlock_apply (x0 : Vec Ideal S3072x768 .f32) (x1 : Vec Ideal S768x768 .f32) (x2 x3 x4 : Vec Ideal S768 .f32)
    (p : Fin 3072) (q : Fin 768) :
    outBlock x0 x1 x2 x3 x4 (ix2 p q) = Spec.entry (fun k => x0 (ix2 p k)) x1 x2 x3 x4 q := by
  rw [outBlock_eq]; exact Payload.pay_apply x3 x4 x2 x1 x0 p q

/-- The input and output windows move together and are cut alike: at every point both block indices are the point's
    number on the rows and zero on the columns, the columns are never cut, and the rows kept are the same. -/
theorem windows_agree : ∀ t : Fin cfg0.N,
    win0_5.index t (0 : Fin 2) = win0_0.index t (0 : Fin 2) ∧ win0_5.index t (1 : Fin 2) = 0 ∧ win0_0.index t (1 : Fin 2) = 0
    ∧ win0_0.index t (0 : Fin 2) = t.val
    ∧ win0_5.xsize (grid0.coords t) (0 : Fin 2) = win0_0.xsize (grid0.coords t) (0 : Fin 2)
    ∧ win0_5.xsize (grid0.coords t) (1 : Fin 2) = 768 ∧ win0_0.xsize (grid0.coords t) (1 : Fin 2) = 768
    ∧ win0_0.xsize (grid0.coords t) (0 : Fin 2) = min 3072 (32768 - 3072 * t.val) :=
  (by decide +kernel : ∀ t : Fin grid0.N, _)

/-- On the rows the write-back moves, the stored value does not depend on what fills the input buffer past the
    array's end. -/
theorem moved_rows (t : Fin cfg0.N) (d0 d1 : S3072x768.Idx → Elt Ideal .f32)
    (xb : (win0_0.xblock (grid0.coords t)).Idx → Elt Ideal .f32) (x1 : Vec Ideal S768x768 .f32) (x2 x3 x4 : Vec Ideal S768 .f32) :
    win0_5.cut (grid0.coords t) (outBlock (win0_0.fill (grid0.coords t) d0 xb) x1 x2 x3 x4)
      = win0_5.cut (grid0.coords t) (outBlock (win0_0.fill (grid0.coords t) d1 xb) x1 x2 x3 x4) := by
  obtain ⟨-, -, -, -, e4, e5, e6, -⟩ := windows_agree t
  funext j
  have hj0 : (j 0).val < win0_0.xsize (grid0.coords t) (0 : Fin 2) := e4 ▸ (j 0).isLt
  let p : Fin 3072 := ⟨(j 0).val, Nat.lt_of_lt_of_le (j 0).isLt (win0_5.xsize_le (grid0.coords t) 0)⟩
  let q : Fin 768 := ⟨(j 1).val, Nat.lt_of_lt_of_le (j 1).isLt (win0_5.xsize_le (grid0.coords t) 1)⟩
  have e : win0_5.xinj (grid0.coords t) j = (ix2 p q : S3072x768.Idx) :=
    funext fun a => by match a with | ⟨0, _⟩ => rfl | ⟨1, _⟩ => rfl
  have key : ∀ X : Vec Ideal S3072x768 .f32,
      outBlock X x1 x2 x3 x4 (win0_5.xinj (grid0.coords t) j) = Spec.entry (fun k => X (ix2 p k)) x1 x2 x3 x4 q :=
    fun X => (congrArg (outBlock X x1 x2 x3 x4) e).trans (outBlock_apply X x1 x2 x3 x4 p q)
  show outBlock _ x1 x2 x3 x4 (win0_5.xinj (grid0.coords t) j) = outBlock _ x1 x2 x3 x4 (win0_5.xinj (grid0.coords t) j)
  refine (key _).trans (Eq.trans ?_ (key _).symm)
  congr 1
  funext k
  have hm : win0_0.moved (grid0.coords t) (ix2 p k : S3072x768.Idx) = true :=
    (win0_0.moved_iff _ _).mpr fun a => by
      match a with
      | ⟨0, _⟩ => exact hj0
      | ⟨1, _⟩ => show k.val < win0_0.xsize (grid0.coords t) (1 : Fin 2); rw [e6]; exact k.isLt
  show win0_0.fill (grid0.coords t) d0 xb (ix2 p k) = win0_0.fill (grid0.coords t) d1 xb (ix2 p k)
  unfold Window.fill
  rw [dif_pos hm, dif_pos hm]

/-! ## The proof data -/

/-- The input block at point t filled out with zeros to a whole buffer. -/
def xfull (c : Dev nD) (t : Fin cfg0.N) : S3072x768.Idx → Elt Ideal .f32 :=
  win0_0.fill (grid0.coords t) (fun _ => (0 : EReal)) (iblk m c 0 t)

/-- The proof data: the arrays as the region finds them; after the body at point t the input buffers at their
    blocks (x's filled out with zeros) and the output's at the body's value of them. -/
def dats (_ : Fin 1) (c : Dev nD) : Dat τ (Elt Ideal) Unit ℕ (UR sig nD τ) ℕ cfg0 c where
  A w := V m c (Pipeline.arrRef spec0 w)
  after w t := match w with
    | ⟨0, _⟩ => xfull m c t
    | ⟨1, _⟩ => iblk m c 1 t
    | ⟨2, _⟩ => iblk m c 2 t
    | ⟨3, _⟩ => iblk m c 3 t
    | ⟨4, _⟩ => iblk m c 4 t
    | ⟨5, _⟩ => outBlock (xfull m c t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xfull m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (xfull m c t) (iblk m c 1 t) (iblk m c 2 t) (iblk m c 3 t) (iblk m c 4 t) := by
  dsimp only [dats]

/-- x's buffer as the body finds it: just fetched, the block on the rows inside the array, anything past them. -/
theorem before0_0 (c : Dev nD) (t : Fin cfg0.N) (d) :
    (dats m 0 c).before 0 t d = win0_0.fill (grid0.coords t) d (iblk m c 0 t) := by
  unfold Dat.before
  rw [if_pos (fetch0_0 t)]
  unfold Dat.fetched Dat.blockOf iblk
  rw [A_eq]
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body's step at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: the two cut windows stated on their moved rows only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  have h5 : ∀ d0 : S3072x768.Idx → Elt Ideal .f32,
      owns (c : Thread nD τ) (st0_5 t) fullShare (win0_5.fill (grid0.coords t)
          (outBlock (win0_0.fill (grid0.coords t) d0 (iblk m c 0 t)) (iblk m c 1 t) (iblk m c 2 t) (iblk m c 3 t) (iblk m c 4 t))
          (win0_5.cut (grid0.coords t) ((dats m 0 c).after 5 t)))
        = (owns (c : Thread nD τ) (st0_5 t) fullShare
          (outBlock (win0_0.fill (grid0.coords t) d0 (iblk m c 0 t)) (iblk m c 1 t) (iblk m c 2 t) (iblk m c 3 t) (iblk m c 4 t)) : sProp 𝕄) := fun d0 => by
    rw [after0_5]; unfold xfull
    exact congrArg _ (win0_5.fill_congr_cut (grid0.coords t) (moved_rows t d0 (fun _ => (0 : EReal)) (iblk m c 0 t) (iblk m c 1 t) (iblk m c 2 t) (iblk m c 3 t) (iblk m c 4 t)))
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _ _ _
    (win0_0.fill (grid0.coords t) d0 (iblk m c 0 t)) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    unfold xfull
    rw [win0_0.cut_fill]
    iexact H0
  isplitl [H1]; · iexact H1
  isplitl [H2]; · iexact H2
  isplitl [H3]; · iexact H3
  isplitl [H4]; · iexact H4
  iexists (outBlock (win0_0.fill (grid0.coords t) d0 (iblk m c 0 t)) (iblk m c 1 t) (iblk m c 2 t) (iblk m c 3 t) (iblk m c 4 t))
  rw [h5 d0]
  iexact H5

/-- The body's obligation at every point, the cut windows stated on their moved rows. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of the program terminates with each array of the launch at what the write-backs
    leave of the proof data, and every other buffer as the reshape after the launch leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and leaves its arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.IdealFinal.lean ====
/-
  The output array after the launch, as one function of the arrays the launch read.

  What point t writes back is rows 3072 t … of the layer's flattened result, as many rows as lie inside the array:
  the output's block moves with the input's, the body's value at a row depends on the input's same row, and the
  weights and the three vectors are staged whole. The eleven blocks cover the 32768 rows (row r lies in block
  r / 3072), so after the last write-back the array holds the layer's flattened result.
-/
import proofs.«153930_g82884278878587_cont_sun_c4_746_13_alg».proof.Proof.IdealRun

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The weights and the three vectors are staged whole: their one block starts at zero on every axis. -/
theorem whole_blocks : ∀ t : Fin cfg0.N,
    win0_1.index t (0 : Fin 2) = 0 ∧ win0_1.index t (1 : Fin 2) = 0
    ∧ win0_2.index t (0 : Fin 1) = 0 ∧ win0_3.index t (0 : Fin 1) = 0 ∧ win0_4.index t (0 : Fin 1) = 0 :=
  (by decide +kernel : ∀ t : Fin grid0.N, _)

theorem iblk1_eq (c : Dev nD) (t : Fin cfg0.N) : (iblk m c 1 t : S768x768.Idx → Elt Ideal .f32) = V m c main_arg1 := by
  obtain ⟨e0, e1, -, -, -⟩ := whole_blocks t
  funext y
  show V m c main_arg1 (((cfg0.win 1).blk t).view.emb y) = V m c main_arg1 y
  refine congrArg _ (funext fun a => Fin.ext ?_)
  match a with
  | ⟨0, _⟩ => show win0_1.index t (0 : Fin 2) * 768 + 1 * (y 0).val = (y 0).val; rw [e0]; omega
  | ⟨1, _⟩ => show win0_1.index t (1 : Fin 2) * 768 + 1 * (y 1).val = (y 1).val; rw [e1]; omega

theorem iblk2_eq (c : Dev nD) (t : Fin cfg0.N) : (iblk m c 2 t : S768.Idx → Elt Ideal .f32) = V m c main_arg2 := by
  obtain ⟨-, -, e2, -, -⟩ := whole_blocks t
  funext y
  show V m c main_arg2 (((cfg0.win 2).blk t).view.emb y) = V m c main_arg2 y
  refine congrArg _ (funext fun a => Fin.ext ?_)
  match a with
  | ⟨0, _⟩ => show win0_2.index t (0 : Fin 1) * 768 + 1 * (y 0).val = (y 0).val; rw [e2]; omega

theorem iblk3_eq (c : Dev nD) (t : Fin cfg0.N) : (iblk m c 3 t : S768.Idx → Elt Ideal .f32) = V m c main_arg3 := by
  obtain ⟨-, -, -, e3, -⟩ := whole_blocks t
  funext y
  show V m c main_arg3 (((cfg0.win 3).blk t).view.emb y) = V m c main_arg3 y
  refine congrArg _ (funext fun a => Fin.ext ?_)
  match a with
  | ⟨0, _⟩ => show win0_3.index t (0 : Fin 1) * 768 + 1 * (y 0).val = (y 0).val; rw [e3]; omega

theorem iblk4_eq (c : Dev nD) (t : Fin cfg0.N) : (iblk m c 4 t : S768.Idx → Elt Ideal .f32) = V m c main_arg4 := by
  obtain ⟨-, -, -, -, e4⟩ := whole_blocks t
  funext y
  show V m c main_arg4 (((cfg0.win 4).blk t).view.emb y) = V m c main_arg4 y
  refine congrArg _ (funext fun a => Fin.ext ?_)
  match a with
  | ⟨0, _⟩ => show win0_4.index t (0 : Fin 1) * 768 + 1 * (y 0).val = (y 0).val; rw [e4]; omega

/-- The layer's entry is a function of its six data. -/
theorem entry_congr {row row' : Fin 768 → EReal} {W W' : (⟨2, ![768, 768]⟩ : Shape).Idx → EReal}
    {b b' al al' be be' : (⟨1, ![768]⟩ : Shape).Idx → EReal} {q q' : Fin 768}
    (h0 : row = row') (h1 : W = W') (h2 : b = b') (h3 : al = al') (h4 : be = be') (h5 : q = q') :
    Spec.entry row W b al be q = Spec.entry row' W' b' al' be' q' := by
  subst h0 h1 h2 h3 h4 h5; rfl

/-- WHAT POINT t WRITES BACK: the rows of the layer's flattened result under the point's block. -/
theorem flushed_eq (c : Dev nD) (t : Fin cfg0.N) :
    (dats m 0 c).flushed 5 t = ((cfg0.win 5).blk t).view.read (Elt Ideal)
      (Spec.flat (V m c main_call0_v0) (V m c main_arg1) (V m c main_arg2) (V m c main_arg3) (V m c main_arg4)) := by
  obtain ⟨e0, e1, e2, e3, e4, e5, e6, e7⟩ := windows_agree t
  funext j
  show win0_5.cut (grid0.coords t) ((dats m 0 c).after 5 t) j = Spec.flat _ _ _ _ _ (((cfg0.win 5).blk t).view.emb j)
  rw [after0_5]
  have hj0 : (j 0).val < win0_0.xsize (grid0.coords t) (0 : Fin 2) := e4 ▸ (j 0).isLt
  let p : Fin 3072 := ⟨(j 0).val, Nat.lt_of_lt_of_le (j 0).isLt (win0_5.xsize_le (grid0.coords t) 0)⟩
  let q : Fin 768 := ⟨(j 1).val, Nat.lt_of_lt_of_le (j 1).isLt (win0_5.xsize_le (grid0.coords t) 1)⟩
  have e : win0_5.xinj (grid0.coords t) j = (ix2 p q : S3072x768.Idx) :=
    funext fun a => by match a with | ⟨0, _⟩ => rfl | ⟨1, _⟩ => rfl
  show outBlock (xfull m c t) (iblk m c 1 t) (iblk m c 2 t) (iblk m c 3 t) (iblk m c 4 t) (win0_5.xinj (grid0.coords t) j) = _
  refine ((congrArg (outBlock (xfull m c t) (iblk m c 1 t) (iblk m c 2 t) (iblk m c 3 t) (iblk m c 4 t)) e).trans
    (outBlock_apply _ _ _ _ _ p q)).trans ?_
  unfold Spec.flat
  refine entry_congr (funext fun k => ?_) (iblk1_eq m c t) (iblk2_eq m c t) (iblk3_eq m c t) (iblk4_eq m c t) (Fin.ext ?_)
  · -- row p of the filled block is row 3072 t + p of the flattened input
    have hm : win0_0.moved (grid0.coords t) (ix2 p k : S3072x768.Idx) = true :=
      (win0_0.moved_iff _ _).mpr fun a => by
        match a with
        | ⟨0, _⟩ => exact hj0
        | ⟨1, _⟩ => show k.val < win0_0.xsize (grid0.coords t) (1 : Fin 2); rw [e6]; exact k.isLt
    show win0_0.fill (grid0.coords t) (fun _ => (0 : EReal)) (iblk m c 0 t) (ix2 p k) = _
    unfold Window.fill
    rw [dif_pos hm]
    have key : ∀ y : (win0_0.xblock (grid0.coords t)).Idx,
        iblk m c 0 t y = V m c main_call0_v0 (((cfg0.win 0).blk t).view.emb y) := fun y => rfl
    rw [key]
    refine congrArg (V m c main_call0_v0) (funext fun a => Fin.ext ?_)
    match a with
    | ⟨0, _⟩ => show win0_0.index t (0 : Fin 2) * 3072 + 1 * (j 0).val = win0_5.index t (0 : Fin 2) * 3072 + 1 * (j 0).val; rw [e0]
    | ⟨1, _⟩ => show win0_0.index t (1 : Fin 2) * 768 + 1 * k.val = k.val; rw [e2]; omega
  · show (j 1).val = win0_5.index t (1 : Fin 2) * 768 + 1 * (j 1).val
    rw [e1]; omega

/-- An index of the output array lies under point t's block iff, on each axis, it is among the block's entries
    inside the array. -/
theorem mem_blk (t : Fin cfg0.N) (i : S32768x768.Idx) :
    i ∈ ((cfg0.win 5).blk t).view.set ↔ ∀ a : Fin 2, win0_5.index t a * S3072x768.size a ≤ (i a).val
      ∧ (i a).val < win0_5.index t a * S3072x768.size a + win0_5.xsize (grid0.coords t) a := by
  show i ∈ ((View.whole main_call0_v1).slice (win0_5.rect t)).set ↔ _
  rw [View.set_slice_whole, Rect.mem_set_unit]
  exact Iff.rfl

/-- The blocks cover the array: row r lies under the block of point r / 3072. -/
theorem cover (i : S32768x768.Idx) :
    ∃ t : Fin cfg0.N, (cfg0.win 5).flush t = true ∧ i ∈ ((cfg0.win 5).blk t).view.set := by
  have hi0 : (i 0).val < 32768 := (i 0).isLt
  have hi1 : (i 1).val < 768 := (i 1).isLt
  have hN : cfg0.N = 11 := N_0
  let t : Fin cfg0.N := ⟨(i 0).val / 3072, by rw [hN]; omega⟩
  have ht : t.val = (i 0).val / 3072 := rfl
  obtain ⟨e0, e1, e2, e3, e4, e5, e6, e7⟩ := windows_agree t
  refine ⟨t, flush0_5 t, (mem_blk t i).mpr fun a => ?_⟩
  match a with
  | ⟨0, _⟩ =>
    show win0_5.index t (0 : Fin 2) * 3072 ≤ (i 0).val ∧ (i 0).val < win0_5.index t (0 : Fin 2) * 3072 + win0_5.xsize (grid0.coords t) (0 : Fin 2)
    rw [e0, e3, e4, e7, ht]; omega
  | ⟨1, _⟩ =>
    show win0_5.index t (1 : Fin 2) * 768 ≤ (i 1).val ∧ (i 1).val < win0_5.index t (1 : Fin 2) * 768 + win0_5.xsize (grid0.coords t) (1 : Fin 2)
    rw [e1, e5]; omega

/-- THE OUTPUT ARRAY AFTER THE LAUNCH: the layer's flattened result of the arrays the launch read. -/
theorem final (c : Dev nD) : (dats m 0 c).arrAt 5 cfg0.N
    = Spec.flat (V m c main_call0_v0) (V m c main_arg1) (V m c main_arg2) (V m c main_arg3) (V m c main_arg4) :=
  (dats m 0 c).arrAt_eq_of_cover 5 _ (fun t _ => flushed_eq m c t) cover

end Cert.KernelIdeal.Body

end
-- ==== Proof.LibMerge.lean ====
/-
  Two leading axes merged into one, and one leading axis split into two, read at explicit coordinates.

  An array `[n, a, b]` laid out row-major is the same sequence of numbers as the array `[n * a, b]`: entry `(p, q, j)`
  of the first sits at position `(p * a + q) * b + j`, which is where entry `(p * a + q, j)` of the second sits. So a cast
  from either shape to the other keeps every entry, the merged row being `r = p * a + q`.
-/
import Idealize.ShloMosaic.Lib.Pipeline.Value
import Idealize.ShloMosaic.Lib.ValueIdx

namespace Idealize.ShloMosaic.ValueIdx

variable {α : Type}

/-- An `[n, a, b]` array cast to `[m, b]` reads, at `(r, j)` with `r = p * a + q`, the operand at `(p, q, j)`. -/
theorem shapeCast_nab_mb_apply {n a b m : ℕ} (x : (⟨3, ![n, a, b]⟩ : Shape).Idx → α)
    (h : (⟨3, ![n, a, b]⟩ : Shape).ShapeCasts ⟨2, ![m, b]⟩) (p : Fin n) (q : Fin a) (j : Fin b) (r : Fin m)
    (hr : r.val = p.val * a + q.val) : shapeCast ⟨2, ![m, b]⟩ x h (ix2 r j) = x (ix3 p q j) :=
  shapeCast_apply x h _ _ (by
    rw [Shape.rowMajor_val_three, Shape.rowMajor_val_two]
    show (p.val * a + q.val) * b + j.val = r.val * b + j.val
    rw [hr])

/-- An `[m, b]` array cast to `[n, a, b]` reads, at `(p, q, j)`, the operand at `(r, j)` with `r = p * a + q`. -/
theorem shapeCast_mb_nab_apply {n a b m : ℕ} (x : (⟨2, ![m, b]⟩ : Shape).Idx → α)
    (h : (⟨2, ![m, b]⟩ : Shape).ShapeCasts ⟨3, ![n, a, b]⟩) (p : Fin n) (q : Fin a) (j : Fin b) (r : Fin m)
    (hr : r.val = p.val * a + q.val) : shapeCast ⟨3, ![n, a, b]⟩ x h (ix3 p q j) = x (ix2 r j) :=
  shapeCast_apply x h _ _ (by
    rw [Shape.rowMajor_val_three, Shape.rowMajor_val_two]
    show r.val * b + j.val = (p.val * a + q.val) * b + j.val
    rw [hr])

end Idealize.ShloMosaic.ValueIdx
-- ==== Proof.IdealTail.lean ====
/-
  The two reshapes around the launch.

  Before the launch the input [4, 8192, 768] is laid out as [32768, 768], and after it the output [32768, 768] is
  laid out as [4, 8192, 768]: both keep the row-major order, so row r = 8192 n + s of the flat array is row (n, s).
  Hence the program's result is the layer's result over (batch, position, column).
-/
import proofs.«153930_g82884278878587_cont_sun_c4_746_13_alg».proof.Proof.IdealFinal
import proofs.«153930_g82884278878587_cont_sun_c4_746_13_alg».proof.Proof.LibMerge
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem Idealize.ShloMosaic.StableHlo
open Idealize.ShloMosaic.Pipeline (Dat Cfg Window)

variable (m : (ℓ : Loc nD τ sig) → Buf (Elt Ideal) ℓ) (ρ : Dev nD → PrngReg)

/-- The array the launch reads its input from is the argument laid out flat. -/
theorem flat_input (c : Dev nD) : (V m c main_call0_v0 : S32768x768.Idx → Elt Ideal .f32)
    = shapeCast S32768x768 (m ((c : Thread nD τ).loc main_arg0)) shapeCasts_S4x8192x768_S32768x768 := by
  show StableHlo.after hostOps0 (fun b => m (c, b)) (Proc.devRef .tc main_call0_v0) = _
  after_results
  rfl

/-- The program's result is the launch's output array laid out over (batch, position, column). -/
theorem tail_value (c : Dev nD) (G : S32768x768.Idx → Elt Ideal .f32) (hG : (dats m 0 c).arrAt 5 cfg0.N = G) :
    Pipeline.afterTail₀ cfgs (dats m) 0 (V0 m) [hostOps1] c main_v0
      = shapeCast S4x8192x768 G shapeCasts_S32768x768_S4x8192x768 := by
  have hw : (Pipeline.withArrays (cfgs 0).spec c (V0 m c) (fun w => (dats m 0 c).arrAt w (cfgs 0).N)
      (Proc.devRef .tc main_call0_v1) : S32768x768.Idx → Elt Ideal .f32) = G :=
    (Pipeline.withArrays_arr spec0 launch0.win.arr_inj c _ _ 5).trans hG
  unfold Pipeline.afterTail₀
  show StableHlo.after hostOps1 _ (Proc.devRef .tc main_v0) = _
  after_results
  exact congrArg (fun X : S32768x768.Idx → Elt Ideal .f32 => shapeCast S4x8192x768 X shapeCasts_S32768x768_S4x8192x768) hw

/-- The layer's flattened result of the flattened input, laid out over (batch, position, column), is the layer's
    result of the input: both reshapes keep row 8192 n + s at (n, s). -/
theorem unflatten (x : S4x8192x768.Idx → Elt Ideal .f32) (W : S768x768.Idx → Elt Ideal .f32) (b al be : S768.Idx → Elt Ideal .f32) :
    shapeCast S4x8192x768 (Spec.flat (shapeCast S32768x768 x shapeCasts_S4x8192x768_S32768x768) W b al be) shapeCasts_S32768x768_S4x8192x768
      = Spec.full x W b al be := by
  funext i
  obtain ⟨n, s, h, rfl⟩ : ∃ (n : Fin 4) (s : Fin 8192) (h : Fin 768), i = ix3 n s h := ⟨i 0, i 1, i 2, eq_ix3 i⟩
  have hr : n.val * 8192 + s.val < 32768 := by have := n.isLt; have := s.isLt; omega
  rw [shapeCast_mb_nab_apply _ _ n s h ⟨n.val * 8192 + s.val, hr⟩ rfl]
  unfold Spec.flat Spec.full
  refine entry_congr (funext fun k => ?_) rfl rfl rfl rfl rfl
  exact shapeCast_nab_mb_apply x _ n s k ⟨n.val * 8192 + s.val, hr⟩ rfl

/-- The program's result buffer after the run, as a function of the arguments. -/
theorem result_eq (c : Dev nD) : Pipeline.afterTail₀ cfgs (dats m) 0 (V0 m) [hostOps1] c main_v0
    = Spec.full (m ((c : Thread nD τ).loc main_arg0)) (m ((c : Thread nD τ).loc main_arg1)) (m ((c : Thread nD τ).loc main_arg2))
        (m ((c : Thread nD τ).loc main_arg3)) (m ((c : Thread nD τ).loc main_arg4)) := by
  rw [tail_value m c _ (final m c), flat_input, V_main_arg1, V_main_arg2, V_main_arg3, V_main_arg4]
  exact unflatten _ _ _ _ _

/-- THE IDEALIZED KERNEL'S RUN: every weakly fair execution terminates with the result at the layer's result of the
    arguments, and the arguments as they were. -/
theorem run_value : θ_run defs (onTc (τ := τ) (main (F := Ideal))) ⟨m, fun _ => 0, ρ⟩ (fun r => ∀ c : Dev nD,
      r.2.mem ((c.tc : Thread nD τ).loc main_v0)
        = Spec.full (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Body

end
-- ==== Proof.RefValue.lean ====
/-
  The reference's result, entry by entry.

  The reference forms alpha * W + beta with alpha and beta laid out as columns, contracts the input's last axis with
  the weight's last axis, adds b along the last axis and takes the maximum with zero: at (n, s, h) this is the
  layer's entry for row (n, s) of the input and column h.
-/
import proofs.«153930_g82884278878587_cont_sun_c4_746_13_alg».proof.Proof.Gen.ReferenceIdeal.Read
import proofs.«153930_g82884278878587_cont_sun_c4_746_13_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The reference's last stage is the layer's result over (batch, position, column). -/
theorem ref_eq (x0 : (⟨S4x8192x768, .f32⟩ : BufTy).Contents (Elt Ideal)) (x1 : (⟨S768x768, .f32⟩ : BufTy).Contents (Elt Ideal))
    (x2 x3 x4 : (⟨S768, .f32⟩ : BufTy).Contents (Elt Ideal)) :
    val_main_v10 (F := Ideal) x0 x1 x2 x3 x4 = Spec.full x0 x1 x2 x3 x4 := by
  funext i
  obtain ⟨n, s, h, rfl⟩ : ∃ (n : Fin 4) (s : Fin 8192) (h : Fin 768), i = ix3 n s h := ⟨i 0, i 1, i 2, eq_ix3 i⟩
  have hl : ∀ k : Fin 768, lidx_main_v6 (ix3 n s h) k = ix3 n s k := fun k =>
    funext fun a => Fin.ext (by match a with | ⟨0, _⟩ => rfl | ⟨1, _⟩ => rfl | ⟨2, _⟩ => rfl)
  have hr : ∀ k : Fin 768, ridx_main_v6 (ix3 n s h) k = ix2 h k := fun k =>
    funext fun a => Fin.ext (by match a with | ⟨0, _⟩ => rfl | ⟨1, _⟩ => rfl)
  have ha : ∀ k : Fin 768, idx_main_v0 (idx_main_v1 (ix2 h k)) = ix1 h := fun k =>
    funext fun a => Fin.ext (by match a with | ⟨0, _⟩ => rfl)
  have hb : ∀ k : Fin 768, idx_main_v3 (idx_main_v4 (ix2 h k)) = ix1 h := fun k =>
    funext fun a => Fin.ext (by match a with | ⟨0, _⟩ => rfl)
  have hc : idx_main_v7 (idx_main_v8 (ix3 n s h)) = ix1 h :=
    funext fun a => Fin.ext (by match a with | ⟨0, _⟩ => rfl)
  rw [val_main_v10_apply, val_main_v9_apply, val_main_v6_apply, val_main_v8_apply, val_main_v7_apply,
    val_main_call0_v0_apply, val_main_call0_cst_apply, hc]
  show max ((∑ k : Fin 768, x0 (lidx_main_v6 (ix3 n s h) k) * val_main_v5 (F := Ideal) x1 x3 x4 (ridx_main_v6 (ix3 n s h) k)) + x2 (ix1 h))
      (Ideal.ofBits .f32 0x00000000#32)
    = max ((∑ k : Fin 768, x0 (ix3 n s k) * Spec.wrec x1 x3 x4 h k) + x2 (ix1 h)) (Ideal.ofBits .f32 0x00000000#32)
  congr 2
  refine Finset.sum_congr rfl fun k _ => ?_
  rw [hl, hr, val_main_v5_apply, val_main_v2_apply, val_main_v1_apply, val_main_v0_apply, val_main_v4_apply,
    val_main_v3_apply, ha, hb]
  rfl

end Cert.ReferenceIdeal.RefValue

end
-- ==== Proof.lean ====
/-
  The certificate of the fused expert layer relu(x · (alpha * W + beta)ᵀ + b) against its jnp reference.

  The kernel flattens x to 32768 rows, walks them in eleven blocks of 3072 rows (the last one holding 2048 rows of
  the array), and at each block forms the reconstructed weight, multiplies, adds the bias and rectifies; the
  reference does the same over the whole array with an einsum. Over the extended reals both results are, at
  (n, s, h), max ((Σ_k x (n, s, k) · (alpha h · W (h, k) + beta h)) + b h) 0, with the same order of operations, so
  the two agree with no appeal to finiteness.

  The three frames: the word-level kernel's run with its output window's contents left unnamed; the idealized
  kernel's run with the output named; the reference's run. The idealization rewrote nothing, so the kernel and its
  idealization are one text read at two instances.
-/
import proofs.«153930_g82884278878587_cont_sun_c4_746_13_alg».proof.Defs
import proofs.«153930_g82884278878587_cont_sun_c4_746_13_alg».proof.Proof.Gen.Kernel
import proofs.«153930_g82884278878587_cont_sun_c4_746_13_alg».proof.Proof.Gen.KernelIdeal
import proofs.«153930_g82884278878587_cont_sun_c4_746_13_alg».proof.Proof.Gen.ReferenceIdeal
import proofs.«153930_g82884278878587_cont_sun_c4_746_13_alg».proof.Proof.Gen.Pre_finite_inputs
import proofs.«153930_g82884278878587_cont_sun_c4_746_13_alg».proof.Proof.Gen.ReferenceIdeal.Run
import proofs.«153930_g82884278878587_cont_sun_c4_746_13_alg».proof.Proof.Gen.ReferenceIdeal.Read
import proofs.«153930_g82884278878587_cont_sun_c4_746_13_alg».proof.Proof.KernelRun
import proofs.«153930_g82884278878587_cont_sun_c4_746_13_alg».proof.Proof.IdealTail
import proofs.«153930_g82884278878587_cont_sun_c4_746_13_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Body.frame (F := Bits) m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the layer's result of the arguments; the memories agree on the arguments. -/
theorem algebraic : Cert.algebraic_KernelIdeal_ReferenceIdeal := by
  intro m ρ m' ρ' _ hagree
  refine ⟨_, Cert.KernelIdeal.Body.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
